-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S8192x2048 : Shape := ⟨2, ![8192, 2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_

variable [Facts]

def fn {F : FTy → Type} [FloatOps F] (main_arg0 : FVec F S4x2048x2048 .f32) (main_arg1 : FVec F S8192x2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  main_v8
-- ==== Kernel.lean ====
abbrev S4x2048x2048 : Shape := ⟨3, ![4, 2048, 2048]⟩
abbrev S8192x2048 : Shape := ⟨2, ![8192, 2048]⟩
abbrev S8192x1 : Shape := ⟨2, ![8192, 1]⟩
abbrev S1024x2048 : Shape := ⟨2, ![1024, 2048]⟩
abbrev S1024x1 : Shape := ⟨2, ![1024, 1]⟩
abbrev S1024 : Shape := ⟨1, ![1024]⟩
abbrev S1x8192 : Shape := ⟨2, ![1, 8192]⟩
abbrev S8192x8192 : Shape := ⟨2, ![8192, 8192]⟩
abbrev S2048x2048 : Shape := ⟨2, ![2048, 2048]⟩
abbrev S1x1024 : Shape := ⟨2, ![1, 1024]⟩
abbrev S2048x1024 : Shape := ⟨2, ![2048, 1024]⟩
abbrev S4x2048x8192 : Shape := ⟨3, ![4, 2048, 8192]⟩

abbrev nBuf : Space → Nat
  | .hbm => 9
  | .vmem => 18
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S8192x2048, .bf16⟩
  | .hbm, ⟨3, _⟩ => ⟨S8192x1, .f32⟩
  | .hbm, ⟨4, _⟩ => ⟨S1x8192, .f32⟩
  | .hbm, ⟨5, _⟩ => ⟨S8192x2048, .f32⟩
  | .hbm, ⟨6, _⟩ => ⟨S8192x2048, .bf16⟩
  | .hbm, ⟨7, _⟩ => ⟨S8192x8192, .f32⟩
  | .hbm, ⟨8, _⟩ => ⟨S4x2048x8192, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1, .f32⟩
  | .local _ .vmem, ⟨5, _⟩ => ⟨S1024x1, .f32⟩
  | .local _ .vmem, ⟨6, _⟩ => ⟨S1024x2048, .f32⟩
  | .local _ .vmem, ⟨7, _⟩ => ⟨S1024x2048, .f32⟩
  | .local _ .vmem, ⟨8, _⟩ => ⟨S1024x2048, .bf16⟩
  | .local _ .vmem, ⟨9, _⟩ => ⟨S1024x2048, .bf16⟩
  | .local _ .vmem, ⟨10, _⟩ => ⟨S2048x2048, .bf16⟩
  | .local _ .vmem, ⟨11, _⟩ => ⟨S2048x2048, .bf16⟩
  | .local _ .vmem, ⟨12, _⟩ => ⟨S1024x2048, .bf16⟩
  | .local _ .vmem, ⟨13, _⟩ => ⟨S1024x2048, .bf16⟩
  | .local _ .vmem, ⟨14, _⟩ => ⟨S1x1024, .f32⟩
  | .local _ .vmem, ⟨15, _⟩ => ⟨S1x1024, .f32⟩
  | .local _ .vmem, ⟨16, _⟩ => ⟨S2048x1024, .f32⟩
  | .local _ .vmem, ⟨17, _⟩ => ⟨S2048x1024, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![4, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S2048x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S2048x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  inb_S1024x2048_S1024x2048_0_0 : ∀ a, (![0, 0] : Fin 2 → Nat) a + S1024x2048.size a ≤ S1024x2048.size a
  h_S1024x2048 : 0 < S1024x2048.numel
  reduces_S1024x2048_S1024 : S1024x2048.Reduces [1] S1024
  shapeCasts_S1024_S1024x1 : S1024.ShapeCasts S1024x1
  broadcasts_S1024x1_S1024x2048 : S1024x1.Broadcasts S1024x2048
  bitsLt_bf16_f32 : FTy.bits .bf16 < FTy.bits .f32
  packedbf16_S1024x2048_S1024x2048_0_0 : (Rect.unit (s := S1024x2048) ![0, 0] S1024x2048.size inb_S1024x2048_S1024x2048_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S8192x1_S1x8192 : S8192x1.ShapeCasts S1x8192
  shapeCasts_S4x2048x2048_S8192x2048 : S4x2048x2048.ShapeCasts S8192x2048
  shapeCasts_S1024x2048_S1024x2048 : S1024x2048.ShapeCasts S1024x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  shapeCasts_S8192x8192_S4x2048x8192 : S8192x8192.ShapeCasts S4x2048x8192
  dot_S2048x2048_S1024x2048_S2048x1024_1_1_0_0_n_n_wf : DotDims.WF S2048x2048 S1024x2048 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .f32 = 32 ∨ (Rect.block (s := S8192x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x2048.size a
  hwx0_1 : ∀ i : grid0.Coords, EltTy.bits .bf16 = 32 ∨ (Rect.block (s := S8192x2048) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x2048.size a
  hwx1_0 : ∀ i : grid1.Coords, EltTy.bits .f32 = 32 ∨ (Rect.block (s := S8192x2048) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S8192x2048.size a
  hwx1_1 : ∀ i : grid1.Coords, EltTy.bits .bf16 = 32 ∨ (Rect.block (s := S8192x2048) S1024x2048.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x2048.size a ≤ S8192x2048.size a
  hwx2_0 : ∀ i : grid2.Coords, EltTy.bits .bf16 = 32 ∨ (Rect.block (s := S8192x2048) S2048x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x2048.size a ≤ S8192x2048.size a
  hwx2_1 : ∀ i : grid2.Coords, EltTy.bits .bf16 = 32 ∨ (Rect.block (s := S8192x2048) S1024x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x8192.size a
  hwx2_2 : ∀ i : grid2.Coords, EltTy.bits .f32 = 32 ∨ (Rect.block (s := S1x8192) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x1024.size a ≤ S8192x8192.size a
  hwx2_3 : ∀ i : grid2.Coords, EltTy.bits .f32 = 32 ∨ (Rect.block (s := S8192x8192) S2048x1024.size (cc2_transform_3 i) (hinb2_3 i)).WholeWords (EltTy.packing .f32)

variable [Facts₀]

def dot_S2048x2048_S1024x2048_S2048x1024_1_1_0_0_n_n : DotDims S2048x2048 S1024x2048 S2048x1024 where
  lhsContracting := [1]
  rhsContracting := [1]
  lhsNonContracting := [0]
  rhsNonContracting := [0]
  lhsBatch := []
  rhsBatch := []
  wf := dot_S2048x2048_S1024x2048_S2048x1024_1_1_0_0_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1024x2048.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x2048.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v3) S2048x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0_0) S1024x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v4) S2048x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x2048 : Shape := ⟨3, ![4, 2048, 2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S4x2048x8192 : Shape := ⟨3, ![4, 2048, 8192]⟩

abbrev nBuf : Space → Nat
  | .hbm => 29
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S4x2048x8192, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_cst_3 : Ref sig .tc := ⟨.hbm, 17, rfl⟩
abbrev main_call2_v0 : Ref sig .tc := ⟨.hbm, 18, rfl⟩
abbrev main_call2_v1 : Ref sig .tc := ⟨.hbm, 19, rfl⟩
abbrev main_call2_v2 : Ref sig .tc := ⟨.hbm, 20, rfl⟩
abbrev main_call2_v3 : Ref sig .tc := ⟨.hbm, 21, rfl⟩
abbrev main_call2_v4 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩

abbrev nD : Nat := 1
abbrev τ : Topo := Topo.v7x

variable {F : FTy → Type} [FloatOps F]

class Facts₀ : Prop where
  reducesTo_S8192x2048_S8192_d1 : S8192x2048.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x2048_0_1 : S8192x1.BroadcastsInDim S8192x2048 (![0, 1] : Fin 2 → Fin S8192x2048.rank)
  bcast_S_S8192x2048 : S_.BroadcastsInDim S8192x2048 (![] : Fin 0 → Fin S8192x2048.rank)
  dot_S4x2048x2048_S8192x2048_S4x2048x8192_2_1_01_0_n_n_wf : DotDims.WF S4x2048x2048 S8192x2048 S4x2048x8192 [2] [1] [0, 1] [0] [] []

variable [Facts₀]

def dot_S4x2048x2048_S8192x2048_S4x2048x8192_2_1_01_0_n_n : DotDims S4x2048x2048 S8192x2048 S4x2048x8192 where
  lhsContracting := [2]
  rhsContracting := [1]
  lhsNonContracting := [0, 1]
  rhsNonContracting := [0]
  lhsBatch := []
  rhsBatch := []
  wf := dot_S4x2048x2048_S8192x2048_S4x2048x8192_2_1_01_0_n_n_wf

class Facts : Prop extends Facts₀ where

variable [Facts]
-- ==== Proof.KernelRun.lean ====
/-
  The idealized kernel's run with its result named.

  @main is five segments: the quantization region, two host reshapes, the cast region, the matmul region, and one
  last host reshape.  The generated frame follows the buffer contents through these segments as a fold `W0 … W5`
  from the launch memory and concludes only that the two argument arrays end as launched.  The same launch, read at
  one more unscoped buffer, says what the result array holds: the last fold `W5` at `main_v5`.  Every later module
  reads that fold backwards, segment by segment, down to the argument arrays.
-/
import proofs.«163683_j2525440770142_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result array `main_v5` then holds the last
    boundary's contents `W5` at that buffer, and the two argument arrays are as launched. -/
theorem run_result : θ_run defs (onTc (τ := τ) (main (F := F))) ⟨m, fun _ => 0, ρ⟩ (fun r => ∀ c : Dev nD,
      r.2.mem ((c.tc : Thread nD τ).loc main_v5) = W5 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v5 (by decide)),
       (h c _ (mem_uc main_arg0 (by decide))).trans (W5_main_arg0 m ρ c),
       (h c _ (mem_uc main_arg1 (by decide))).trans (W5_main_arg1 m ρ c)⟩)

end Cert.KernelIdeal.Whole

end
-- ==== Proof.Ternary.lean ====
/-
  Ternary weights with a per-row scale, on the extended reals: the arithmetic both programs perform on one row of the
  weight matrix and one row of the activations, and the law that makes their two arrangements agree.

  For a weight row `w` of `n` entries the scale is `s = max(floor, (∑ₖ |w k|) / width)`, and each entry is replaced by
  the ternary value `q k = min(1, max(-1, round(w k / s)))`, the rounding to nearest with ties to even.  One program
  multiplies the activations by the ternary values and scales the finished sum, `(∑ₖ x k · q k) · s`.  The other first
  rebuilds a dequantized weight `w k + (q k · s - w k)` and sums the products with it.  On the extended reals the
  two agree when every `x k` and `w k` is a real number: then `s` is a real (a finite sum of reals, divided by a
  nonzero real, floored by a real), every `q k` lies between -1 and 1 and is a real whatever the rounding returned,
  `w k + (q k · s - w k) = q k · s` because `w k` is finite, and the factor `s` moves out of the finite sum of reals.
  With an infinite entry neither step is available: `⊤ + (a - ⊤)` is `⊥`, and an infinite factor does not distribute.
-/
import Idealize.ShloMosaic.PureOps.Ideal
import Idealize.ShloMosaic.PureOps.Ideal.Laws

noncomputable section

open scoped BigOperators

namespace Cert.Ternary

open Idealize.ShloMosaic

/-! ## The four float literals the two programs share -/

/-- The lower bound of the scale, the f32 nearest to 1e-5. -/
def floorC : EReal := Ideal.ofBits .f32 0x3727C5AC#32
/-- The row length as a float, 2048.0. -/
def widthC : EReal := Ideal.ofBits .f32 0x45000000#32
/-- -1.0 -/
def loC : EReal := Ideal.ofBits .f32 0xBF800000#32
/-- 1.0 -/
def hiC : EReal := Ideal.ofBits .f32 0x3F800000#32

theorem widthC_eq : widthC = ((2048 : ℝ) : EReal) := by
  unfold widthC; simp [Ideal.ofBits, Ideal.ieee, -EReal.coe_mul]; norm_num
theorem loC_eq : loC = ((-1 : ℝ) : EReal) := by
  unfold loC; simp [Ideal.ofBits, Ideal.ieee, -EReal.coe_mul]; norm_num
theorem hiC_eq : hiC = ((1 : ℝ) : EReal) := by
  unfold hiC; simp [Ideal.ofBits, Ideal.ieee, -EReal.coe_mul]; norm_num
/-- The floor is a normal float, so it denotes a real number (its value never matters). -/
theorem floorC_real : ∃ e : ℝ, floorC = (e : EReal) := by
  unfold floorC; simp [Ideal.ofBits, Ideal.ieee, -EReal.coe_mul]

/-! ## One row's arithmetic -/

variable {ι : Type} [Fintype ι]

/-- The scale of a weight row: the mean of the absolute values (the sum divided by the row length), floored. -/
def rowScale (w : ι → EReal) : EReal :=
  max floorC (Ideal.div (∑ k, FloatOps.absf (F := Ideal) (φ := .f32) (w k)) widthC)

/-- The ternary value of an entry `v` under the scale `s`: the quotient rounded to nearest, ties to even, clipped to [-1, 1]. -/
def tern (s v : EReal) : EReal :=
  min hiC (max loC (Ideal.liftRound Ideal.roundHalfEven (Ideal.div v s)))

/-- The kernel's arrangement: the activations against the ternary values, the finished sum scaled. -/
def scaledSum (x w : ι → EReal) : EReal :=
  (∑ k, x k * tern (rowScale w) (w k)) * rowScale w

/-- The reference's arrangement: the activations against the dequantized weights `w + (q · s - w)`. -/
def dequantSum (x w : ι → EReal) : EReal :=
  ∑ k, x k * (w k + (tern (rowScale w) (w k) * rowScale w - w k))

/-! ## Real witnesses -/

/-- The coercion of a finite sum of reals is the sum of the coercions. -/
theorem coe_sum (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) :=
  EReal.coe_strictMono.monotone.map_max
theorem coe_min (a b : ℝ) : ((min a b : ℝ) : EReal) = min (a : EReal) (b : EReal) :=
  EReal.coe_strictMono.monotone.map_min

/-- The scale of a row of reals is a real. -/
theorem rowScale_real (d : ι → ℝ) : ∃ c : ℝ, rowScale (fun k => (d k : EReal)) = (c : EReal) := by
  obtain ⟨e, he⟩ := floorC_real
  refine ⟨max e ((∑ k, max (d k) (-(d k))) * (1 / 2048)), ?_⟩
  unfold rowScale
  rw [he, widthC_eq, Ideal.div_coe (by norm_num)]
  simp only [Ideal.absf_def, ← EReal.coe_neg, ← coe_max, ← coe_sum, ← EReal.coe_mul]

/-- A value clipped to [-1, 1] is a real, whatever it was. -/
theorem clip_real (z : EReal) : ∃ q : ℝ, min hiC (max loC z) = (q : EReal) := by
  rw [hiC_eq, loC_eq]
  induction z using EReal.rec with
  | bot => exact ⟨min 1 (-1), by rw [max_eq_left bot_le, coe_min]⟩
  | top => exact ⟨1, by rw [max_eq_right le_top, min_eq_left le_top]⟩
  | coe r => exact ⟨min 1 (max (-1) r), by rw [coe_min, coe_max]⟩

/-! ## The law -/

/-- The two arrangements agree on rows given by real-valued functions. -/
theorem scaledSum_eq_dequantSum_coe (a d : ι → ℝ) :
    scaledSum (fun k => (a k : EReal)) (fun k => (d k : EReal))
      = dequantSum (fun k => (a k : EReal)) (fun k => (d k : EReal)) := by
  obtain ⟨c, hc⟩ := rowScale_real d
  have hq : ∀ k, ∃ q : ℝ, tern (rowScale fun k => (d k : EReal)) (d k : EReal) = (q : EReal) := fun k => clip_real _
  choose b hb using hq
  have h1 : ∀ k, (a k : EReal) * tern (rowScale fun k => (d k : EReal)) (d k : EReal) = ((a k * b k : ℝ) : EReal) :=
    fun k => by rw [hb k, EReal.coe_mul]
  have h2 : ∀ k, (a k : EReal) * ((d k : EReal) + (tern (rowScale fun k => (d k : EReal)) (d k : EReal)
        * rowScale (fun k => (d k : EReal)) - (d k : EReal))) = ((a k * (d k + (b k * c - d k)) : ℝ) : EReal) :=
    fun k => by rw [hb k, hc, EReal.coe_mul, EReal.coe_add, EReal.coe_sub, EReal.coe_mul]
  show (∑ k, (a k : EReal) * tern (rowScale fun k => (d k : EReal)) (d k : EReal)) * rowScale (fun k => (d k : EReal))
      = ∑ k, (a k : EReal) * ((d k : EReal) + (tern (rowScale fun k => (d k : EReal)) (d k : EReal)
        * rowScale (fun k => (d k : EReal)) - (d k : EReal)))
  rw [Finset.sum_congr rfl (fun k _ => h1 k), Finset.sum_congr rfl (fun k _ => h2 k), hc, ← coe_sum, ← coe_sum,
    ← EReal.coe_mul]
  refine congrArg _ ?_
  rw [Finset.sum_mul]
  exact Finset.sum_congr rfl fun k _ => by ring

/-- On rows of real numbers the two arrangements agree. -/
theorem scaledSum_eq_dequantSum (x w : ι → EReal) (hx : ∀ k, ∃ r : ℝ, x k = (r : EReal))
    (hw : ∀ k, ∃ r : ℝ, w k = (r : EReal)) : scaledSum x w = dequantSum x w := by
  choose a ha using hx
  choose d hd using hw
  rw [show x = fun k => (a k : EReal) from funext ha, show w = fun k => (d k : EReal) from funext hd]
  exact scaledSum_eq_dequantSum_coe a d

end Cert.Ternary
end
-- ==== Proof.LibRowLayout.lean ====
/-
  Row layouts read at an index: the handful of re-arrangements a row-wise kernel and a row-wise host program make of a
  `[B, n]` array and its `[B]` / `[B, 1]` companions, each read at explicit coordinates.

  * a flat vector `[B]` cast to a column `[B, 1]`, and a column cast back to a flat vector: the same entry, row by row;
  * a column `[B, 1]` broadcast along the lanes to `[B, n]`: every lane of row `p` holds the column's entry `p`;
  * a rotation of the lanes by `k`: lane `q` holds what lane `q - k` held, around the end;
  * the same rotation spelt as a host program spells it, the last `k` lanes sliced off and joined in front of the rest;
  * a sum over the lanes on the vector unit: the sum of the row's entries, with no initial value in front;
  * a row divided by its own lane sum, the sum cast to a column and broadcast back: each entry's share of its row's total.

  All are statements about indices only; the element type is arbitrary except for the sum and the share, which are over
  extended reals. Nothing here mentions a program.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.KernelVsHost

noncomputable section

open scoped BigOperators

namespace Cert.RowLayout

open Idealize.ShloMosaic Idealize.ShloMosaic.ValueIdx

variable {α : Type}

/-! ## Casts between a flat vector and a column -/

/-- A flat vector cast to a column holds, in row `p`, the vector's entry `p`: both sit at row-major position `p`. -/
theorem castCol_apply {B : Nat} (v : (⟨1, ![B]⟩ : Shape).Idx → α)
    (h : Shape.ShapeCasts (⟨1, ![B]⟩ : Shape) (⟨2, ![B, 1]⟩ : Shape)) (p : Fin B) :
    shapeCast (⟨2, ![B, 1]⟩ : Shape) v h (ix2 p (0 : Fin 1)) = v (ix1 p) :=
  shapeCast_apply v h (ix2 p (0 : Fin 1)) (ix1 p) (by
    rw [Shape.rowMajor_val_one, Shape.rowMajor_val_two]
    show p.val = p.val * 1 + 0
    omega)

/-- A column cast to a flat vector holds, at `p`, the column's row `p`. -/
theorem castFlat_apply {B : Nat} (v : (⟨2, ![B, 1]⟩ : Shape).Idx → α)
    (h : Shape.ShapeCasts (⟨2, ![B, 1]⟩ : Shape) (⟨1, ![B]⟩ : Shape)) (p : Fin B) :
    shapeCast (⟨1, ![B]⟩ : Shape) v h (ix1 p) = v (ix2 p (0 : Fin 1)) :=
  shapeCast_apply v h (ix1 p) (ix2 p (0 : Fin 1)) (by
    rw [Shape.rowMajor_val_one, Shape.rowMajor_val_two]
    show p.val * 1 + 0 = p.val
    omega)

/-! ## A column broadcast along the lanes -/

/-- A column broadcast to `n` lanes holds the column's entry of row `p` in every lane of row `p`. -/
theorem bcastCol_apply {B n : Nat} (y : (⟨2, ![B, 1]⟩ : Shape).Idx → α)
    (h : Shape.Broadcasts (⟨2, ![B, 1]⟩ : Shape) (⟨2, ![B, n]⟩ : Shape)) (p : Fin B) (q : Fin n) :
    broadcastTo (⟨2, ![B, n]⟩ : Shape) y h (ix2 p q) = y (ix2 p (0 : Fin 1)) :=
  broadcastTo_apply y h (ix2 p q) (ix2 p (0 : Fin 1)) (fun a => match a with
    | ⟨0, _⟩ => by
        show p.val = if B = 1 then 0 else p.val
        split
        · have := p.isLt; omega
        · rfl
    | ⟨1, _⟩ => by
        show 0 = if (1 : Nat) = 1 then 0 else q.val
        rw [if_pos rfl])

/-! ## A rotation of the lanes -/

/-- The lane `k` steps behind `q` among `n` lanes, around the end. -/
def behind {n : Nat} (k : Nat) (q : Fin n) : Fin n := ⟨(q.val + n - k % n) % n, Nat.mod_lt _ (Fin.pos q)⟩

/-- The vector unit's rotation of the lanes by the amount `sb`: lane `q` of the result holds what lane
    `q - sb` of the operand held (around the end), in the same row. -/
theorem rotLanes_apply {B n : Nat} (sb : BitVec 32) (x : (⟨2, ![B, n]⟩ : Shape).Idx → α)
    (h : Shape.Rotates (⟨2, ![B, n]⟩ : Shape) (1 : Fin 2) none) (p : Fin B) (q : Fin n) :
    dynamicRotate (s := (⟨2, ![B, n]⟩ : Shape)) (1 : Fin 2) sb none x h (ix2 p q) = x (ix2 p (behind sb.toNat q)) :=
  dynamicRotate_apply (1 : Fin 2) sb x h (ix2 p q) (ix2 p (behind sb.toNat q)) (fun b => match b with
    | ⟨0, _⟩ => by
        show p.val = if (⟨0, _⟩ : Fin 2) = (1 : Fin 2) then _ else p.val
        rw [if_neg (Fin.ne_of_val_ne Nat.zero_ne_one)]
    | ⟨1, _⟩ => by
        show (q.val + n - sb.toNat % n) % n = if (⟨1, _⟩ : Fin 2) = (1 : Fin 2) then (q.val + n - sb.toNat % n) % n else _
        exact (if_pos (Fin.ext rfl)).symm)

/-- Behind a lane among the first `k`: the rotation wraps, and the lane is `n - k` further on. -/
theorem behind_val_of_lt {n k : Nat} (hk : k < n) (q : Fin n) (hq : q.val < k) : (behind k q).val = q.val + n - k := by
  show (q.val + n - k % n) % n = _
  rw [Nat.mod_eq_of_lt hk, Nat.mod_eq_of_lt (by omega)]

/-- Behind a lane past the first `k`: no wrap, the lane is `k` back. -/
theorem behind_val_of_ge {n k : Nat} (hk : k < n) (q : Fin n) (hq : k ≤ q.val) : (behind k q).val = q.val - k := by
  have hqn : q.val < n := q.isLt
  show (q.val + n - k % n) % n = _
  rw [Nat.mod_eq_of_lt hk, show q.val + n - k = (q.val - k) + n by omega, Nat.add_mod_right, Nat.mod_eq_of_lt (by omega)]

/-- The same rotation as a host program spells it: the last `k` lanes (a slice at lane offset `r = n - k`) joined in
    front of the first `r` lanes (a slice at offset `0`). Lane `q` of the join holds what lane `q - k` of the operand
    held, around the end: a lane among the first `k` comes from the first piece, `r` further on; a later lane from the
    second piece, `k` back. -/
theorem rollConcat_apply {B n k r : Nat} (hkr : k + r = n) (hk0 : 0 < k) (hr0 : 0 < r)
    (x : (⟨2, ![B, n]⟩ : Shape).Idx → α)
    (hs₁ : Shape.Slices (⟨2, ![B, n]⟩ : Shape) ![0, r] (⟨2, ![B, k]⟩ : Shape))
    (hs₂ : Shape.Slices (⟨2, ![B, n]⟩ : Shape) ![0, 0] (⟨2, ![B, r]⟩ : Shape))
    (hc : Shape.Concatenates [(⟨2, ![B, k]⟩ : Shape), (⟨2, ![B, r]⟩ : Shape)] (⟨2, ![B, n]⟩ : Shape) (1 : Fin 2))
    (p : Fin B) (q : Fin n) :
    concatenate (⟨2, ![B, n]⟩ : Shape) (1 : Fin 2)
        [⟨(⟨2, ![B, k]⟩ : Shape), extractStridedSlice (⟨2, ![B, k]⟩ : Shape) ![0, r] x hs₁⟩,
         ⟨(⟨2, ![B, r]⟩ : Shape), extractStridedSlice (⟨2, ![B, r]⟩ : Shape) ![0, 0] x hs₂⟩] hc (ix2 p q)
      = x (ix2 p (behind k q)) := by
  have hkn : k < n := by omega
  have hqn : q.val < n := q.isLt
  by_cases hq : q.val < k
  · -- a lane of the first piece
    refine (concatenate_pair_apply_left (t := (⟨2, ![B, n]⟩ : Shape)) (s₁ := (⟨2, ![B, k]⟩ : Shape)) (s₂ := (⟨2, ![B, r]⟩ : Shape))
      (1 : Fin 2) _ _ hc (ix2 p q) rfl (ix2 p (⟨q.val, hq⟩ : Fin k))
      (fun b => match b with | ⟨0, _⟩ => rfl | ⟨1, _⟩ => rfl)).trans ?_
    refine extractStridedSlice_apply ![0, r] x hs₁ (ix2 p (⟨q.val, hq⟩ : Fin k)) (ix2 p (behind k q)) (fun a => match a with
      | ⟨0, _⟩ => by show p.val = 0 + p.val; omega
      | ⟨1, _⟩ => by
          show (behind k q).val = r + q.val
          rw [behind_val_of_lt hkn q hq]; omega)
  · -- a lane of the second piece
    have hq' : k ≤ q.val := Nat.le_of_not_lt hq
    refine (concatenate_pair_apply_right (t := (⟨2, ![B, n]⟩ : Shape)) (s₁ := (⟨2, ![B, k]⟩ : Shape)) (s₂ := (⟨2, ![B, r]⟩ : Shape))
      (1 : Fin 2) _ _ hc (ix2 p q) rfl rfl (ix2 p (⟨q.val - k, by omega⟩ : Fin r))
      (fun b => match b with
        | ⟨0, _⟩ => fun _ => rfl
        | ⟨1, _⟩ => fun hne => absurd (Fin.ext rfl) hne)
      (by show (q.val - k) + k = q.val; omega)).trans ?_
    refine extractStridedSlice_apply ![0, 0] x hs₂ (ix2 p (⟨q.val - k, by omega⟩ : Fin r)) (ix2 p (behind k q)) (fun a => match a with
      | ⟨0, _⟩ => by show p.val = 0 + p.val; omega
      | ⟨1, _⟩ => by
          show (behind k q).val = 0 + (q.val - k)
          rw [behind_val_of_ge hkn q hq']; omega)

/-! ## A sum over the lanes -/

/-- The vector unit's sum over the lanes (its accumulator the zero word, the sum's neutral element) is, in row `p`,
    the sum of the row's `n` entries. -/
theorem laneSum_apply {B n : Nat} (v : FVec Ideal (⟨2, ![B, n]⟩ : Shape) .f32)
    (h : Shape.Reduces (⟨2, ![B, n]⟩ : Shape) [(1 : Fin 2)] (⟨1, ![B]⟩ : Shape)) (hφ : FKind.Formats .f32)
    (hacc : (0x00000000#32 : BitVec 32) = FKind.add.neutral .f32 hφ) (p : Fin B) :
    multiReduction .add [(1 : Fin 2)] (⟨1, ![B]⟩ : Shape) v 0x00000000#32 h hφ hacc (ix1 p) = ∑ k : Fin n, v (ix2 p k) := by
  refine (Ideal.multiReduction_add_single v 0x00000000#32 h hφ hacc (ix1 p)).trans ?_
  refine Finset.sum_congr rfl fun k _ => ?_
  exact congrArg v (funext fun a => Fin.ext (by match a with | ⟨0, _⟩ => rfl | ⟨1, _⟩ => rfl))

/-- A ROW'S SHARE OF ITS OWN TOTAL: a `[B, n]` vector divided by its lane sums — the sums taken on the vector unit, cast
    to a column and broadcast back along the lanes, as a `keepdims` sum is — holds at `(p, q)` the entry divided by the
    sum of row `p`. -/
theorem rowShare_apply {B n : Nat} (U : FVec Ideal (⟨2, ![B, n]⟩ : Shape) .f32)
    (hred : Shape.Reduces (⟨2, ![B, n]⟩ : Shape) [(1 : Fin 2)] (⟨1, ![B]⟩ : Shape)) (hφ : FKind.Formats .f32)
    (hacc : (0x00000000#32 : BitVec 32) = FKind.add.neutral .f32 hφ)
    (hcast : Shape.ShapeCasts (⟨1, ![B]⟩ : Shape) (⟨2, ![B, 1]⟩ : Shape))
    (hbc : Shape.Broadcasts (⟨2, ![B, 1]⟩ : Shape) (⟨2, ![B, n]⟩ : Shape)) (p : Fin B) (q : Fin n) :
    divf U (broadcastTo (⟨2, ![B, n]⟩ : Shape)
        (shapeCast (⟨2, ![B, 1]⟩ : Shape) (multiReduction .add [(1 : Fin 2)] (⟨1, ![B]⟩ : Shape) U 0x00000000#32 hred hφ hacc) hcast)
        hbc) (ix2 p q)
      = Ideal.div (U (ix2 p q)) (∑ k : Fin n, U (ix2 p k)) := by
  refine congrArg (Ideal.div (U (ix2 p q))) ?_
  exact (bcastCol_apply _ hbc p q).trans ((castCol_apply _ hcast p).trans (laneSum_apply U hred hφ hacc p))

end Cert.RowLayout

end
-- ==== Proof.Payloads.lean ====
/-
  What each kernel body computes, read at one entry of its output block (at the ideal float values).

  * The quantization body, on a block of 1024 weight rows: the scale column holds in row `p` the scale of row `p`
    (the mean absolute value, floored), and the ternary block holds at `(p, q)` the ternary value of entry `(p, q)`
    under the scale of its own row.
  * The cast body changes the float format only: at the ideal values it returns its block.
  * The product body, on 2048 activation rows, 1024 ternary rows and their 1024 scales laid out as one row: entry
    `(r, n)` is the sum over `k` of activation `(r, k)` times ternary `(n, k)`, times scale `n`.
-/
import proofs.«163683_j2525440770142_2_alg».proof.Proof.Gen.KernelIdeal.Skeleton
import proofs.«163683_j2525440770142_2_alg».proof.Proof.Ternary
import proofs.«163683_j2525440770142_2_alg».proof.Proof.LibRowLayout
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Payload

open Cert.KernelIdeal Cert.KernelIdeal.Gen
open Idealize.ShloMosaic Idealize.ShloMosaic.ValueIdx
open Cert.Ternary Cert.RowLayout

/-! ## The quantization body -/

/-- Row `p` of the scale column is the scale of row `p` of the block. -/
theorem scale_apply (x0 : Vec Ideal S1024x2048 .f32) (p : Fin 1024) :
    k0_pay1 (F := Ideal) x0 (ix2 p (0 : Fin 1)) = rowScale (fun k : Fin 2048 => x0 (ix2 p k)) := by
  unfold k0_pay1 rowScale
  refine congrArg (max floorC) (congrArg (fun z => Ideal.div z widthC) ?_)
  exact (castCol_apply _ _ p).trans (laneSum_apply (absf x0) _ _ _ p)

/-- Entry `(p, q)` of the ternary block is the ternary value of the block's entry under its row's scale. -/
theorem tern_apply (x0 : Vec Ideal S1024x2048 .f32) (p : Fin 1024) (q : Fin 2048) :
    k0_pay2 (F := Ideal) x0 (ix2 p q) = tern (rowScale (fun k : Fin 2048 => x0 (ix2 p k))) (x0 (ix2 p q)) := by
  unfold k0_pay2 tern
  refine congrArg (min hiC) (congrArg (max loC) (congrArg (Ideal.liftRound Ideal.roundHalfEven)
    (congrArg (Ideal.div (x0 (ix2 p q))) ?_)))
  exact (bcastCol_apply _ _ p q).trans (scale_apply x0 p)

/-! ## The cast body -/

/-- A change of float format is the identity at the ideal values. -/
theorem cast_eq (x0 : Vec Ideal S1024x2048 .f32) : k1_pay1 (F := Ideal) x0 = x0 := by
  unfold k1_pay1
  funext j
  exact congrFun (shapeCast_self x0 _) j

/-! ## The product body -/

/-- The operand indices of the product's dimension numbers: the left operand is read at (output row, contraction
    position), the right operand at (output column, contraction position). -/
theorem lhs_row (j : S2048x1024.Idx) (q : dot_S2048x2048_S1024x2048_S2048x1024_1_1_0_0_n_n.contr.Idx) :
    (dot_S2048x2048_S1024x2048_S2048x1024_1_1_0_0_n_n.lhsIdx j q 0).val = (j 0).val := by
  unfold DotDims.lhsIdx
  rw [dif_neg (show ¬(0 : Fin S2048x2048.rank) ∈ dot_S2048x2048_S1024x2048_S2048x1024_1_1_0_0_n_n.lhsBatch by decide),
    dif_pos (show (0 : Fin S2048x2048.rank) ∈ dot_S2048x2048_S1024x2048_S2048x1024_1_1_0_0_n_n.lhsNonContracting by decide)]
  rfl
theorem lhs_pos (j : S2048x1024.Idx) (q : dot_S2048x2048_S1024x2048_S2048x1024_1_1_0_0_n_n.contr.Idx) :
    (dot_S2048x2048_S1024x2048_S2048x1024_1_1_0_0_n_n.lhsIdx j q 1).val = (q ⟨0, by decide⟩).val :=
  dot_S2048x2048_S1024x2048_S2048x1024_1_1_0_0_n_n.lhsIdx_val_of_single rfl j q
theorem rhs_row (j : S2048x1024.Idx) (q : dot_S2048x2048_S1024x2048_S2048x1024_1_1_0_0_n_n.contr.Idx) :
    (dot_S2048x2048_S1024x2048_S2048x1024_1_1_0_0_n_n.rhsIdx j q 0).val = (j 1).val := by
  unfold DotDims.rhsIdx
  rw [dif_neg (show ¬(0 : Fin S1024x2048.rank) ∈ dot_S2048x2048_S1024x2048_S2048x1024_1_1_0_0_n_n.rhsBatch by decide),
    dif_pos (show (0 : Fin S1024x2048.rank) ∈ dot_S2048x2048_S1024x2048_S2048x1024_1_1_0_0_n_n.rhsNonContracting by decide)]
  rfl
theorem rhs_pos (j : S2048x1024.Idx) (q : dot_S2048x2048_S1024x2048_S2048x1024_1_1_0_0_n_n.contr.Idx) :
    (dot_S2048x2048_S1024x2048_S2048x1024_1_1_0_0_n_n.rhsIdx j q 1).val = (q ⟨0, by decide⟩).val :=
  dot_S2048x2048_S1024x2048_S2048x1024_1_1_0_0_n_n.rhsIdx_val_of_single rfl j q

/-- Entry `(r, n)` of the product block: the row of activations against the row of ternary values, then the scale. -/
theorem product_apply (v0 : Vec Ideal S2048x2048 .bf16) (v2 : Vec Ideal S1024x2048 .bf16) (v5 : Vec Ideal S1x1024 .f32)
    (r : Fin 2048) (n : Fin 1024) :
    k2_pay1 (F := Ideal) v0 v2 v5 (ix2 r n)
      = (∑ k : Fin 2048, v0 (ix2 r k) * v2 (ix2 n k)) * v5 (ix2 (0 : Fin 1) n) := by
  unfold k2_pay1
  rw [shapeCast_self v0, shapeCast_self v2, shapeCast_self v5]
  refine (mulf_apply _ _ _).trans (congr (congrArg _ ?_) (broadcastTo_1b_ab_apply _ _ r n))
  refine (Ideal.matmul_constant_zero_apply (φ₁ := .bf16) (φ₂ := .bf16) _ none v0 v2 (ix2 r n)).trans ?_
  rw [← Equiv.sum_comp (ValueIdx.contrEquiv1 dot_S2048x2048_S1024x2048_S2048x1024_1_1_0_0_n_n 2048 rfl rfl).symm]
  refine Finset.sum_congr rfl fun k _ => ?_
  have hk := ValueIdx.contrEquiv1_symm_val dot_S2048x2048_S1024x2048_S2048x1024_1_1_0_0_n_n 2048 rfl rfl k
  have el : dot_S2048x2048_S1024x2048_S2048x1024_1_1_0_0_n_n.lhsIdx (ix2 r n) ((ValueIdx.contrEquiv1 dot_S2048x2048_S1024x2048_S2048x1024_1_1_0_0_n_n 2048 rfl rfl).symm k) = ix2 r k :=
    funext fun a => Fin.ext (by
      match a with
      | ⟨0, _⟩ => exact lhs_row _ _
      | ⟨1, _⟩ => exact (lhs_pos _ _).trans hk)
  have er : dot_S2048x2048_S1024x2048_S2048x1024_1_1_0_0_n_n.rhsIdx (ix2 r n) ((ValueIdx.contrEquiv1 dot_S2048x2048_S1024x2048_S2048x1024_1_1_0_0_n_n 2048 rfl rfl).symm k) = ix2 n k :=
    funext fun a => Fin.ext (by
      match a with
      | ⟨0, _⟩ => exact rhs_row _ _
      | ⟨1, _⟩ => exact (rhs_pos _ _).trans hk)
  rw [el, er]

end Cert.KernelIdeal.Payload

end
-- ==== Proof.RegionQuant.lean ====
import proofs.«163683_j2525440770142_2_alg».proof.Proof.Gen.KernelIdeal.Frame
import proofs.«163683_j2525440770142_2_alg».proof.Proof.Payloads
import Idealize.ShloMosaic.Lib.Pipeline.Value

set_option maxRecDepth 16384

/-
  The quantization region, as whole arrays.

  The region walks the 8192 weight rows in 8 blocks of 1024 rows, each block spanning the full row length, so a row's
  scale is computed inside one block.  Point `t` reads rows `1024 t … 1024 t + 1023` and writes the same rows of the
  ternary array and of the scale column.  Because a row's scale and ternary values depend on that row only, what point
  `t` writes is block `t` of one function of the whole weight array; the 8 blocks tile both outputs, so after the region
  the ternary array holds at `(o, k)` the ternary value of weight `(o, k)` under the scale of row `o`, and the scale
  column holds in row `o` the scale of row `o`.
-/

noncomputable section

namespace Cert.KernelIdeal.Quant

open Cert.KernelIdeal Cert.KernelIdeal.Gen
open Idealize.ShloMosaic Idealize.ShloMosaic.TcCoe Idealize.ShloMosaic.Tactic
open Idealize.SL.Sem
open Idealize.ShloMosaic.Pipeline (Dat Cfg Window)

open Idealize.ShloMosaic.ValueIdx Cert.Ternary

theorem hz : (![0, 0] : Fin 2 → Nat) = fun _ => 0 := funext fun a => by fin_cases a <;> rfl

/-- The ternary array of a weight array: each entry under the scale of its own row. -/
def ternArr (A : S8192x2048.Idx → EReal) : S8192x2048.Idx → EReal :=
  fun i => tern (rowScale (fun k : Fin 2048 => A (ix2 (⟨(i 0).val, (i 0).isLt⟩ : Fin 8192) k))) (A i)

/-- The scale column of a weight array. -/
def scaleCol (A : S8192x2048.Idx → EReal) : S8192x1.Idx → EReal :=
  fun i => rowScale (fun k : Fin 2048 => A (ix2 (⟨(i 0).val, (i 0).isLt⟩ : Fin 8192) k))

/-! ## One block -/

/-- Row `p` of block `b` is a row of the array. -/
theorem row_bound (b : Nat) (hb : b < 8) (p : Fin 1024) : b * 1024 + p.val < 8192 := by
  have := p.isLt
  omega

/-- If a block holds rows `1024 b …` of the array `A`, the body's ternary block at `y` is the ternary array of `A` at the
    entry `1024 b` rows further down. -/
theorem tern_block (A : S8192x2048.Idx → EReal) (x0 : Vec Ideal S1024x2048 .f32) (b : Nat) (hb : b < 8)
    (hx : ∀ (p : Fin 1024) (k : Fin 2048), x0 (ix2 p k) = A (ix2 (⟨b * 1024 + p.val, by omega⟩ : Fin 8192) k))
    (y : S1024x2048.Idx) (i : S8192x2048.Idx) (hi0 : (i 0).val = b * 1024 + (y 0).val) (hi1 : (i 1).val = (y 1).val) :
    k0_pay2 (F := Ideal) x0 y = ternArr A i := by
  obtain ⟨p, q, rfl⟩ : ∃ (p : Fin 1024) (q : Fin 2048), y = ix2 p q := ⟨y 0, y 1, eq_ix2 y⟩
  obtain ⟨o, q', rfl⟩ : ∃ (o : Fin 8192) (q' : Fin 2048), i = ix2 o q' := ⟨i 0, i 1, eq_ix2 i⟩
  obtain rfl : o = ⟨b * 1024 + p.val, row_bound b hb p⟩ := Fin.ext hi0
  obtain rfl : q' = q := Fin.ext hi1
  rw [Payload.tern_apply]
  unfold ternArr
  simp only [hx]

/-- The same for the scale column. -/
theorem scale_block (A : S8192x2048.Idx → EReal) (x0 : Vec Ideal S1024x2048 .f32) (b : Nat) (hb : b < 8)
    (hx : ∀ (p : Fin 1024) (k : Fin 2048), x0 (ix2 p k) = A (ix2 (⟨b * 1024 + p.val, by omega⟩ : Fin 8192) k))
    (y : S1024x1.Idx) (i : S8192x1.Idx) (hi0 : (i 0).val = b * 1024 + (y 0).val) :
    k0_pay1 (F := Ideal) x0 y = scaleCol A i := by
  obtain ⟨p, z, rfl⟩ : ∃ (p : Fin 1024) (z : Fin 1), y = ix2 p z := ⟨y 0, y 1, eq_ix2 y⟩
  obtain rfl : z = 0 := Subsingleton.elim _ _
  rw [Payload.scale_apply]
  unfold scaleCol
  simp only [hx]
  refine congrArg rowScale (funext fun k => congrArg A (congrArg (fun o => ix2 o k) (Fin.ext hi0.symm)))

/-! ## The points -/

variable (V : (c : Dev nD) → (b : Ref sig .tc) → Buf (Elt Ideal) ((c : Thread nD τ).loc b))

/-- The three windows move together: at point `t` each is at block row `t`, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The weight block at point `t` is rows `1024 t …` of the weight array. -/
theorem iblk_apply (c : Dev nD) (t : Fin cfg0.N) (p : Fin 1024) (k : Fin 2048) :
    (iblk0 V c 0 t : Vec Ideal S1024x2048 .f32) (ix2 p k)
      = (V c main_arg1 : S8192x2048.Idx → EReal) (ix2 (⟨t.val * 1024 + p.val, by
          have hN : cfg0.N = 8 := N_0
          have := t.isLt
          omega⟩ : Fin 8192) k) := by
  obtain ⟨e00, e01, -⟩ := idx_facts t
  unfold iblk0
  rw [View.read_apply]
  show V c main_arg1 _ = V c main_arg1 _
  refine congrArg (V c main_arg1) (funext fun a => Fin.ext ?_)
  match a with
  | ⟨0, _⟩ => show win0_0.index t 0 * 1024 + 1 * p.val = t.val * 1024 + p.val; rw [e00]; omega
  | ⟨1, _⟩ => show win0_0.index t 1 * 2048 + 1 * k.val = k.val; rw [e01]; omega

/-- What point `t` writes back to the ternary array is block `t` of the ternary array of the weights. -/
theorem flushed_tern (c : Dev nD) (t : Fin cfg0.N) :
    (dat0 V c).flushed 1 t = ((cfg0.win 1).blk t).view.read (Elt Ideal) (ternArr (V c main_arg1)) := by
  show (cfg0.win 1).cut (grid0.coords t) ((dat0 V c).after 1 t) = _
  rw [after0_1]
  unfold out0_1
  rw [View.canon_unit_zero hz]
  simp only [View.ld_unit_zero (S := S1024x2048) hz]
  funext j
  show k0_pay2 (iblk0 V c 0 t) j = ternArr (V c main_arg1) (((cfg0.win 1).blk t).view.emb j)
  have hN : cfg0.N = 8 := N_0
  obtain ⟨-, -, e10, e11, -⟩ := idx_facts t
  refine tern_block (V c main_arg1) (iblk0 V c 0 t) t.val (by have := t.isLt; omega) (fun p k => iblk_apply V c t p k) j _ ?_ ?_
  · show win0_1.index t 0 * 1024 + 1 * (j 0).val = t.val * 1024 + (j 0).val; rw [e10]; omega
  · show win0_1.index t 1 * 2048 + 1 * (j 1).val = (j 1).val; rw [e11]; omega

/-- What point `t` writes back to the scale column is block `t` of the scale column of the weights. -/
theorem flushed_scale (c : Dev nD) (t : Fin cfg0.N) :
    (dat0 V c).flushed 2 t = ((cfg0.win 2).blk t).view.read (Elt Ideal) (scaleCol (V c main_arg1)) := by
  show (cfg0.win 2).cut (grid0.coords t) ((dat0 V c).after 2 t) = _
  rw [after0_2]
  unfold out0_2
  rw [View.canon_unit_zero hz]
  simp only [View.ld_unit_zero (S := S1024x2048) hz]
  funext j
  show k0_pay1 (iblk0 V c 0 t) j = scaleCol (V c main_arg1) (((cfg0.win 2).blk t).view.emb j)
  have hN : cfg0.N = 8 := N_0
  obtain ⟨-, -, -, -, e20, e21⟩ := idx_facts t
  refine scale_block (V c main_arg1) (iblk0 V c 0 t) t.val (by have := t.isLt; omega) (fun p k => iblk_apply V c t p k) j _ ?_
  show win0_2.index t 0 * 1024 + 1 * (j 0).val = t.val * 1024 + (j 0).val; rw [e20]; omega

/-! ## The cover -/

/-- Row `r` of either output lies in the block of point `r / 1024`. -/
theorem cover_tern (i : S8192x2048.Idx) :
    ∃ t : Fin cfg0.N, (cfg0.win 1).flush t = true ∧ i ∈ ((cfg0.win 1).blk t).view.set := by
  have hN : cfg0.N = 8 := N_0
  have h0 : (i 0).val < 8192 := (i 0).isLt
  have h1 : (i 1).val < 2048 := (i 1).isLt
  let t : Fin cfg0.N := ⟨(i 0).val / 1024, by omega⟩
  obtain ⟨-, -, e10, e11, -⟩ := idx_facts t
  refine ⟨t, flush0_1 t, ?_⟩
  show i ∈ ((View.whole main_v0_0).slice (win0_1.rect t)).set
  rw [View.set_slice_whole, Rect.mem_set_unit]
  intro a
  match a with
  | ⟨0, _⟩ =>
    show win0_1.index t (0 : Fin 2) * 1024 ≤ (i 0).val ∧ (i 0).val < win0_1.index t (0 : Fin 2) * 1024 + 1024
    rw [e10]; show (i 0).val / 1024 * 1024 ≤ (i 0).val ∧ (i 0).val < (i 0).val / 1024 * 1024 + 1024; omega
  | ⟨1, _⟩ =>
    show win0_1.index t (1 : Fin 2) * 2048 ≤ (i 1).val ∧ (i 1).val < win0_1.index t (1 : Fin 2) * 2048 + 2048
    rw [e11]; omega

theorem cover_scale (i : S8192x1.Idx) :
    ∃ t : Fin cfg0.N, (cfg0.win 2).flush t = true ∧ i ∈ ((cfg0.win 2).blk t).view.set := by
  have hN : cfg0.N = 8 := N_0
  have h0 : (i 0).val < 8192 := (i 0).isLt
  have h1 : (i 1).val < 1 := (i 1).isLt
  let t : Fin cfg0.N := ⟨(i 0).val / 1024, by omega⟩
  obtain ⟨-, -, -, -, e20, e21⟩ := idx_facts t
  refine ⟨t, flush0_2 t, ?_⟩
  show i ∈ ((View.whole main_v0_1).slice (win0_2.rect t)).set
  rw [View.set_slice_whole, Rect.mem_set_unit]
  intro a
  match a with
  | ⟨0, _⟩ =>
    show win0_2.index t (0 : Fin 2) * 1024 ≤ (i 0).val ∧ (i 0).val < win0_2.index t (0 : Fin 2) * 1024 + 1024
    rw [e20]; show (i 0).val / 1024 * 1024 ≤ (i 0).val ∧ (i 0).val < (i 0).val / 1024 * 1024 + 1024; omega
  | ⟨1, _⟩ =>
    show win0_2.index t (1 : Fin 2) * 1 ≤ (i 1).val ∧ (i 1).val < win0_2.index t (1 : Fin 2) * 1 + 1
    rw [e21]; omega

/-! ## The arrays after the region -/

/-- After the region the ternary array is the ternary array of the weights as the region found them. -/
theorem final_tern (c : Dev nD) : (dat0 V c).arrAt 1 cfg0.N = ternArr (V c main_arg1) :=
  (dat0 V c).arrAt_eq_of_cover 1 (ternArr (V c main_arg1)) (fun t _ => flushed_tern V c t) cover_tern

/-- After the region the scale column is the scale column of the weights as the region found them. -/
theorem final_scale (c : Dev nD) : (dat0 V c).arrAt 2 cfg0.N = scaleCol (V c main_arg1) :=
  (dat0 V c).arrAt_eq_of_cover 2 (scaleCol (V c main_arg1)) (fun t _ => flushed_scale V c t) cover_scale

end Cert.KernelIdeal.Quant

end
-- ==== Proof.RegionCast.lean ====
import proofs.«163683_j2525440770142_2_alg».proof.Proof.Gen.KernelIdeal.Frame
import proofs.«163683_j2525440770142_2_alg».proof.Proof.Payloads
import Idealize.ShloMosaic.Lib.Pipeline.Value

set_option maxRecDepth 16384

/-
  The cast region, as a whole array.

  The region copies the activations, laid out as 8192 rows of 2048, block by block (8 blocks of 1024 rows) into an array
  of a narrower float format.  At the ideal values a change of format is the identity, every point writes back the
  block it read, and the 8 blocks tile the array: after the region the output array is the input array.
-/

noncomputable section

namespace Cert.KernelIdeal.Cast

open Cert.KernelIdeal Cert.KernelIdeal.Gen
open Idealize.ShloMosaic Idealize.ShloMosaic.TcCoe Idealize.ShloMosaic.Tactic
open Idealize.SL.Sem
open Idealize.ShloMosaic.Pipeline (Dat Cfg Window)

open Idealize.ShloMosaic.ValueIdx

theorem hz : (![0, 0] : Fin 2 → Nat) = fun _ => 0 := funext fun a => by fin_cases a <;> rfl

variable (V : (c : Dev nD) → (b : Ref sig .tc) → Buf (Elt Ideal) ((c : Thread nD τ).loc b))

/-- The input window and the output window move together: block row `t`, block column 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- The array the region reads, as a function on the output array's indices (the two arrays have one shape). -/
def copied (c : Dev nD) : S8192x2048.Idx → EReal := fun i => (V c main_v2 : S8192x2048.Idx → EReal) i

/-- What point `t` writes back is block `t` of the input array. -/
theorem flushed_copy (c : Dev nD) (t : Fin cfg1.N) :
    (dat1 V c).flushed 1 t = ((cfg1.win 1).blk t).view.read (Elt Ideal) (copied V c) := by
  show (cfg1.win 1).cut (grid1.coords t) ((dat1 V c).after 1 t) = _
  rw [after1_1]
  unfold out1_1
  rw [View.canon_unit_zero hz]
  simp only [View.ld_unit_zero (S := S1024x2048) hz]
  funext j
  show k1_pay1 (iblk1 V c 0 t) j = copied V c (((cfg1.win 1).blk t).view.emb j)
  refine (congrFun (Payload.cast_eq (iblk1 V c 0 t)) j).trans ?_
  obtain ⟨e00, e01, e10, e11⟩ := idx_facts t
  unfold iblk1 copied
  rw [View.read_apply]
  show V c main_v2 _ = V c main_v2 _
  refine congrArg (V c main_v2) (funext fun a => Fin.ext ?_)
  match a with
  | ⟨0, _⟩ => show win1_0.index t 0 * 1024 + 1 * (j 0).val = win1_1.index t 0 * 1024 + 1 * (j 0).val; rw [e00, e10]
  | ⟨1, _⟩ => show win1_0.index t 1 * 2048 + 1 * (j 1).val = win1_1.index t 1 * 2048 + 1 * (j 1).val; rw [e01, e11]

/-- Row `r` of the output lies in the block of point `r / 1024`. -/
theorem cover_copy (i : S8192x2048.Idx) :
    ∃ t : Fin cfg1.N, (cfg1.win 1).flush t = true ∧ i ∈ ((cfg1.win 1).blk t).view.set := by
  have hN : cfg1.N = 8 := N_1
  have h0 : (i 0).val < 8192 := (i 0).isLt
  have h1 : (i 1).val < 2048 := (i 1).isLt
  let t : Fin cfg1.N := ⟨(i 0).val / 1024, by omega⟩
  obtain ⟨-, -, e10, e11⟩ := idx_facts t
  refine ⟨t, flush1_1 t, ?_⟩
  show i ∈ ((View.whole main_v3).slice (win1_1.rect t)).set
  rw [View.set_slice_whole, Rect.mem_set_unit]
  intro a
  match a with
  | ⟨0, _⟩ =>
    show win1_1.index t (0 : Fin 2) * 1024 ≤ (i 0).val ∧ (i 0).val < win1_1.index t (0 : Fin 2) * 1024 + 1024
    rw [e10]; show (i 0).val / 1024 * 1024 ≤ (i 0).val ∧ (i 0).val < (i 0).val / 1024 * 1024 + 1024; omega
  | ⟨1, _⟩ =>
    show win1_1.index t (1 : Fin 2) * 2048 ≤ (i 1).val ∧ (i 1).val < win1_1.index t (1 : Fin 2) * 2048 + 2048
    rw [e11]; omega

/-- After the region the output array is the input array. -/
theorem final_copy (c : Dev nD) : (dat1 V c).arrAt 1 cfg1.N = copied V c :=
  (dat1 V c).arrAt_eq_of_cover 1 (copied V c) (fun t _ => flushed_copy V c t) cover_copy

end Cert.KernelIdeal.Cast

end
-- ==== Proof.RegionProduct.lean ====
import proofs.«163683_j2525440770142_2_alg».proof.Proof.Gen.KernelIdeal.Frame
import proofs.«163683_j2525440770142_2_alg».proof.Proof.Payloads
import Idealize.ShloMosaic.Lib.Pipeline.Value

set_option maxRecDepth 16384

/-
  The product region, as a whole array.

  The grid is 4 by 8: point `(a, b)` reads activation rows `2048 a …`, ternary weight rows `1024 b …` and the entries
  `1024 b …` of the scale row, and writes the `2048 × 1024` block `(a, b)` of the `8192 × 8192` product.  An entry of the
  product depends only on one activation row, one ternary row and one scale, so every point writes a block of one
  function of the three whole arrays: entry `(r, n)` is the sum over `k` of activation `(r, k)` times ternary `(n, k)`,
  times scale `n`.  The 32 blocks tile the product, so after the region the product array is that function.
-/

noncomputable section

namespace Cert.KernelIdeal.Product

open Cert.KernelIdeal Cert.KernelIdeal.Gen
open Idealize.ShloMosaic Idealize.ShloMosaic.TcCoe Idealize.ShloMosaic.Tactic
open Idealize.SL.Sem
open Idealize.ShloMosaic.Pipeline (Dat Cfg Window)

open Idealize.ShloMosaic.ValueIdx

theorem hz : (![0, 0] : Fin 2 → Nat) = fun _ => 0 := funext fun a => by fin_cases a <;> rfl

/-- Rows of `A` against rows of `B`, each column scaled by the matching entry of the row vector `S`. -/
def prodArr (A B : S8192x2048.Idx → EReal) (S : S1x8192.Idx → EReal) : S8192x8192.Idx → EReal :=
  fun i => (∑ k : Fin 2048, A (ix2 (⟨(i 0).val, (i 0).isLt⟩ : Fin 8192) k) * B (ix2 (⟨(i 1).val, (i 1).isLt⟩ : Fin 8192) k))
    * S (ix2 (0 : Fin 1) (⟨(i 1).val, (i 1).isLt⟩ : Fin 8192))

/-! ## One block -/

/-- Row `r` of block row `a`, and column `n` of block column `b`, are a row and a column of the product. -/
theorem row_bound (a : Nat) (ha : a < 4) (r : Fin 2048) : a * 2048 + r.val < 8192 := by
  have := r.isLt
  omega
theorem col_bound (b : Nat) (hb : b < 8) (n : Fin 1024) : b * 1024 + n.val < 8192 := by
  have := n.isLt
  omega

/-- If the three loaded blocks hold activation rows `2048 a …`, ternary rows `1024 b …` and scales `1024 b …`, the body's
    block at `y` is the whole-array product at the entry `2048 a` rows down and `1024 b` columns across. -/
theorem prod_block (A B : S8192x2048.Idx → EReal) (S : S1x8192.Idx → EReal)
    (x0 : Vec Ideal S2048x2048 .bf16) (x1 : Vec Ideal S1024x2048 .bf16) (x2 : Vec Ideal S1x1024 .f32)
    (a b : Nat) (ha : a < 4) (hb : b < 8)
    (h0 : ∀ (r : Fin 2048) (k : Fin 2048), x0 (ix2 r k) = A (ix2 (⟨a * 2048 + r.val, by omega⟩ : Fin 8192) k))
    (h1 : ∀ (n : Fin 1024) (k : Fin 2048), x1 (ix2 n k) = B (ix2 (⟨b * 1024 + n.val, by omega⟩ : Fin 8192) k))
    (h2 : ∀ (n : Fin 1024), x2 (ix2 (0 : Fin 1) n) = S (ix2 (0 : Fin 1) (⟨b * 1024 + n.val, by omega⟩ : Fin 8192)))
    (y : S2048x1024.Idx) (i : S8192x8192.Idx) (hi0 : (i 0).val = a * 2048 + (y 0).val)
    (hi1 : (i 1).val = b * 1024 + (y 1).val) :
    k2_pay1 (F := Ideal) x0 x1 x2 y = prodArr A B S i := by
  obtain ⟨r, n, rfl⟩ : ∃ (r : Fin 2048) (n : Fin 1024), y = ix2 r n := ⟨y 0, y 1, eq_ix2 y⟩
  obtain ⟨o, o', rfl⟩ : ∃ (o : Fin 8192) (o' : Fin 8192), i = ix2 o o' := ⟨i 0, i 1, eq_ix2 i⟩
  obtain rfl : o = ⟨a * 2048 + r.val, row_bound a ha r⟩ := Fin.ext hi0
  obtain rfl : o' = ⟨b * 1024 + n.val, col_bound b hb n⟩ := Fin.ext hi1
  rw [Payload.product_apply]
  unfold prodArr
  simp only [h0, h1, h2]

/-! ## The points -/

variable (V : (c : Dev nD) → (b : Ref sig .tc) → Buf (Elt Ideal) ((c : Thread nD τ).loc b))

/-- The input windows follow the output window: the activations its block row, the ternary weights and the scales
    its block column. -/
theorem idx_facts : ∀ t : Fin cfg2.N, win2_0.index t (0 : Fin 2) = win2_3.index t (0 : Fin 2)
    ∧ win2_0.index t (1 : Fin 2) = 0
    ∧ win2_1.index t (0 : Fin 2) = win2_3.index t (1 : Fin 2)
    ∧ win2_1.index t (1 : Fin 2) = 0
    ∧ win2_2.index t (0 : Fin 2) = 0
    ∧ win2_2.index t (1 : Fin 2) = win2_3.index t (1 : Fin 2)
    ∧ win2_3.index t (0 : Fin 2) < 4 ∧ win2_3.index t (1 : Fin 2) < 8 :=
  (by decide +kernel : ∀ t : Fin grid2.N, _)

/-- Every block of the 4 by 8 tiling is some point's. -/
theorem idx_onto : ∀ (q0 : Fin 4) (q1 : Fin 8), ∃ t : Fin cfg2.N, win2_3.index t = ![q0.val, q1.val] :=
  (by decide +kernel : ∀ (q0 : Fin 4) (q1 : Fin 8), ∃ t : Fin grid2.N, win2_3.index t = ![q0.val, q1.val])

/-- The activation block at point `t`. -/
theorem iblk_act (c : Dev nD) (t : Fin cfg2.N) (r : Fin 2048) (k : Fin 2048) :
    (iblk2 V c 0 t : Vec Ideal S2048x2048 .bf16) (ix2 r k)
      = (V c main_v3 : S8192x2048.Idx → EReal) (ix2 (⟨win2_3.index t (0 : Fin 2) * 2048 + r.val, by
          have := (idx_facts t).2.2.2.2.2.2.1
          omega⟩ : Fin 8192) k) := by
  obtain ⟨e00, e01, -⟩ := idx_facts t
  unfold iblk2
  rw [View.read_apply]
  show V c main_v3 _ = V c main_v3 _
  refine congrArg (V c main_v3) (funext fun a => Fin.ext ?_)
  match a with
  | ⟨0, _⟩ => show win2_0.index t 0 * 2048 + 1 * r.val = win2_3.index t 0 * 2048 + r.val; rw [e00]; omega
  | ⟨1, _⟩ => show win2_0.index t 1 * 2048 + 1 * k.val = k.val; rw [e01]; omega

/-- The ternary block at point `t`. -/
theorem iblk_tern (c : Dev nD) (t : Fin cfg2.N) (n : Fin 1024) (k : Fin 2048) :
    (iblk2 V c 1 t : Vec Ideal S1024x2048 .bf16) (ix2 n k)
      = (V c main_v0_0 : S8192x2048.Idx → EReal) (ix2 (⟨win2_3.index t (1 : Fin 2) * 1024 + n.val, by
          have := (idx_facts t).2.2.2.2.2.2.2
          omega⟩ : Fin 8192) k) := by
  obtain ⟨-, -, e10, e11, -⟩ := idx_facts t
  unfold iblk2
  rw [View.read_apply]
  show V c main_v0_0 _ = V c main_v0_0 _
  refine congrArg (V c main_v0_0) (funext fun a => Fin.ext ?_)
  match a with
  | ⟨0, _⟩ => show win2_1.index t 0 * 1024 + 1 * n.val = win2_3.index t 1 * 1024 + n.val; rw [e10]; omega
  | ⟨1, _⟩ => show win2_1.index t 1 * 2048 + 1 * k.val = k.val; rw [e11]; omega

/-- The scale block at point `t`. -/
theorem iblk_scale (c : Dev nD) (t : Fin cfg2.N) (n : Fin 1024) :
    (iblk2 V c 2 t : Vec Ideal S1x1024 .f32) (ix2 (0 : Fin 1) n)
      = (V c main_v1 : S1x8192.Idx → EReal) (ix2 (0 : Fin 1) (⟨win2_3.index t (1 : Fin 2) * 1024 + n.val, by
          have := (idx_facts t).2.2.2.2.2.2.2
          omega⟩ : Fin 8192)) := by
  obtain ⟨-, -, -, -, e20, e21, -⟩ := idx_facts t
  unfold iblk2
  rw [View.read_apply]
  show V c main_v1 _ = V c main_v1 _
  refine congrArg (V c main_v1) (funext fun a => Fin.ext ?_)
  match a with
  | ⟨0, _⟩ => show win2_2.index t 0 * 1 + 1 * 0 = 0; rw [e20]
  | ⟨1, _⟩ => show win2_2.index t 1 * 1024 + 1 * n.val = win2_3.index t 1 * 1024 + n.val; rw [e21]; omega

/-- What point `t` writes back is block `t` of the whole-array product of the three arrays the region reads. -/
theorem flushed_prod (c : Dev nD) (t : Fin cfg2.N) :
    (dat2 V c).flushed 3 t = ((cfg2.win 3).blk t).view.read (Elt Ideal)
      (prodArr (V c main_v3) (V c main_v0_0) (V c main_v1)) := by
  show (cfg2.win 3).cut (grid2.coords t) ((dat2 V c).after 3 t) = _
  rw [after2_3]
  unfold out2_3
  rw [View.canon_unit_zero hz]
  simp only [View.ld_unit_zero (S := S2048x2048) hz, View.ld_unit_zero (S := S1024x2048) hz, View.ld_unit_zero (S := S1x1024) hz]
  funext j
  show k2_pay1 (iblk2 V c 0 t) (iblk2 V c 1 t) (iblk2 V c 2 t) j
    = prodArr (V c main_v3) (V c main_v0_0) (V c main_v1) (((cfg2.win 3).blk t).view.emb j)
  obtain ⟨-, -, -, -, -, -, b0, b1⟩ := idx_facts t
  refine prod_block (V c main_v3) (V c main_v0_0) (V c main_v1) (iblk2 V c 0 t) (iblk2 V c 1 t) (iblk2 V c 2 t)
    (win2_3.index t (0 : Fin 2)) (win2_3.index t (1 : Fin 2)) b0 b1
    (fun r k => iblk_act V c t r k) (fun n k => iblk_tern V c t n k) (fun n => iblk_scale V c t n) j _ ?_ ?_
  · show win2_3.index t 0 * 2048 + 1 * (j 0).val = win2_3.index t 0 * 2048 + (j 0).val; omega
  · show win2_3.index t 1 * 1024 + 1 * (j 1).val = win2_3.index t 1 * 1024 + (j 1).val; omega

/-- Entry `(r, n)` of the product lies in the block of the point at block row `r / 2048`, block column `n / 1024`. -/
theorem cover_prod (i : S8192x8192.Idx) :
    ∃ t : Fin cfg2.N, (cfg2.win 3).flush t = true ∧ i ∈ ((cfg2.win 3).blk t).view.set := by
  have h0 : (i 0).val < 8192 := (i 0).isLt
  have h1 : (i 1).val < 8192 := (i 1).isLt
  obtain ⟨t, ht⟩ := idx_onto ⟨(i 0).val / 2048, by omega⟩ ⟨(i 1).val / 1024, by omega⟩
  have q0 : win2_3.index t (0 : Fin 2) = (i 0).val / 2048 := congrFun ht 0
  have q1 : win2_3.index t (1 : Fin 2) = (i 1).val / 1024 := congrFun ht 1
  refine ⟨t, flush2_3 t, ?_⟩
  show i ∈ ((View.whole main_v4).slice (win2_3.rect t)).set
  rw [View.set_slice_whole, Rect.mem_set_unit]
  intro a
  match a with
  | ⟨0, _⟩ =>
    show win2_3.index t (0 : Fin 2) * 2048 ≤ (i 0).val ∧ (i 0).val < win2_3.index t (0 : Fin 2) * 2048 + 2048
    rw [q0]; omega
  | ⟨1, _⟩ =>
    show win2_3.index t (1 : Fin 2) * 1024 ≤ (i 1).val ∧ (i 1).val < win2_3.index t (1 : Fin 2) * 1024 + 1024
    rw [q1]; omega

/-- After the region the product array is the whole-array product of the arrays the region found. -/
theorem final_prod (c : Dev nD) :
    (dat2 V c).arrAt 3 cfg2.N = prodArr (V c main_v3) (V c main_v0_0) (V c main_v1) :=
  (dat2 V c).arrAt_eq_of_cover 3 (prodArr (V c main_v3) (V c main_v0_0) (V c main_v1))
    (fun t _ => flushed_prod V c t) cover_prod

end Cert.KernelIdeal.Product

end
-- ==== Proof.Spec.lean ====
/-
  The two arrangements over the whole arrays.

  With activations `X` of shape [4, 2048, 2048] and weights `W` of shape [8192, 2048], entry `(b, s, o)` of the result
  pairs the activation row `X[b, s, ·]` with the weight row `W[o, ·]`: the kernel computes the scaled sum of ternary
  products of that pair of rows, the reference the sum of products with the dequantized weight row.  Entry by entry
  this is the one-row law, so the two whole-array functions agree when every entry of both arrays is a real number.
-/
import proofs.«163683_j2525440770142_2_alg».proof.Proof.Ternary
import Idealize.ShloMosaic.Lib.ValueIdx

noncomputable section

namespace Cert.Ternary

open Idealize.ShloMosaic Idealize.ShloMosaic.ValueIdx

/-- Entry `(b, s, o)`: the ternary products of activation row `(b, s)` and weight row `o`, summed, then scaled. -/
def scaledOut (X : (⟨3, ![4, 2048, 2048]⟩ : Shape).Idx → EReal) (W : (⟨2, ![8192, 2048]⟩ : Shape).Idx → EReal) :
    (⟨3, ![4, 2048, 8192]⟩ : Shape).Idx → EReal :=
  fun i => scaledSum (fun k : Fin 2048 => X (ix3 (i 0 : Fin 4) (i 1 : Fin 2048) k))
    (fun k : Fin 2048 => W (ix2 (i 2 : Fin 8192) k))

/-- Entry `(b, s, o)`: activation row `(b, s)` against the dequantized weight row `o`. -/
def dequantOut (X : (⟨3, ![4, 2048, 2048]⟩ : Shape).Idx → EReal) (W : (⟨2, ![8192, 2048]⟩ : Shape).Idx → EReal) :
    (⟨3, ![4, 2048, 8192]⟩ : Shape).Idx → EReal :=
  fun i => dequantSum (fun k : Fin 2048 => X (ix3 (i 0 : Fin 4) (i 1 : Fin 2048) k))
    (fun k : Fin 2048 => W (ix2 (i 2 : Fin 8192) k))

/-- On arrays of real numbers the two whole-array functions agree. -/
theorem scaledOut_eq_dequantOut (X : (⟨3, ![4, 2048, 2048]⟩ : Shape).Idx → EReal)
    (W : (⟨2, ![8192, 2048]⟩ : Shape).Idx → EReal) (hX : ∀ i, ∃ r : ℝ, X i = (r : EReal))
    (hW : ∀ i, ∃ r : ℝ, W i = (r : EReal)) : scaledOut X W = dequantOut X W :=
  funext fun i => scaledSum_eq_dequantSum _ _ (fun k => hX _) (fun k => hW _)

end Cert.Ternary

end
-- ==== Proof.KernelValue.lean ====
import proofs.«163683_j2525440770142_2_alg».proof.Proof.KernelRun
import proofs.«163683_j2525440770142_2_alg».proof.Proof.RegionQuant
import proofs.«163683_j2525440770142_2_alg».proof.Proof.RegionCast
import proofs.«163683_j2525440770142_2_alg».proof.Proof.RegionProduct
import proofs.«163683_j2525440770142_2_alg».proof.Proof.Spec
import Idealize.ShloMosaic.Lib.StableHlo.Run
import Idealize.ShloMosaic.Lib.Pipeline.Value

set_option maxRecDepth 16384

/-
  The idealized kernel's result as one function of its two arguments.

  The run's last boundary is read backwards.  The result is a reshape of the 8192 × 8192 product.  The product region
  found three arrays: the cast activations, the ternary weights and the scale row.  The cast region copied the
  activations, themselves a reshape of the argument from [4, 2048, 2048] to 8192 rows; the ternary weights and the scale
  column were left by the quantization region, which found the weight argument as launched; the scale row is the scale
  column reshaped.  Entry `(b, s, o)` of the result therefore pairs activation row `(b, s)` — row `2048 b + s` of the
  reshaped array — with weight row `o`, and is the scaled sum of their ternary products.
-/

noncomputable section

namespace Cert.KernelIdeal.Whole

open Cert.KernelIdeal Cert.KernelIdeal.Gen
open Idealize.ShloMosaic Idealize.ShloMosaic.TcCoe Idealize.ShloMosaic.Tactic
open Idealize.SL.Sem
open Idealize.ShloMosaic.Pipeline (Dat Cfg Window)

open Idealize.ShloMosaic.ValueIdx Cert.Ternary

variable (m : (ℓ : Loc nD τ sig) → Buf (Elt Ideal) ℓ) (ρ : Dev nD → PrngReg)

/-! ## Each boundary's arrays -/

/-- The result array is the product array reshaped. -/
theorem result_reshape (c : Dev nD) :
    (W5 m ρ c (Proc.devRef .tc main_v5) : S4x2048x8192.Idx → EReal)
      = shapeCast S4x2048x8192 (V4 m ρ c main_v4 : S8192x8192.Idx → EReal) shapeCasts_S8192x8192_S4x2048x8192 := by
  show StableHlo.after hostOps3 (W4 m ρ c) (Proc.devRef .tc main_v5) = _
  after_results
  rfl

/-- The product array after the product region. -/
theorem product_array (c : Dev nD) :
    (V4 m ρ c main_v4 : S8192x8192.Idx → EReal)
      = Product.prodArr (V3 m ρ c main_v3) (V3 m ρ c main_v0_0) (V3 m ρ c main_v1) :=
  (W4_arr m ρ c 3).trans (Product.final_prod (V3 m ρ) c)

/-- The cast activations are the reshaped activations. -/
theorem cast_array (c : Dev nD) :
    (V3 m ρ c main_v3 : S8192x2048.Idx → EReal) = (V2 m ρ c main_v2 : S8192x2048.Idx → EReal) :=
  (W3_arr m ρ c 1).trans (Cast.final_copy (V2 m ρ) c)

/-- The cast region leaves the ternary weights and the scale row alone. -/
theorem tern_kept (c : Dev nD) : V3 m ρ c main_v0_0 = V2 m ρ c main_v0_0 := W3_of_ne m ρ c main_v0_0 (by decide)
theorem scale_kept (c : Dev nD) : V3 m ρ c main_v1 = V2 m ρ c main_v1 := W3_of_ne m ρ c main_v1 (by decide)

/-- The reshaped activations. -/
theorem act_reshape (c : Dev nD) :
    (V2 m ρ c main_v2 : S8192x2048.Idx → EReal)
      = shapeCast S8192x2048 (V1 m ρ c main_arg0 : S4x2048x2048.Idx → EReal) shapeCasts_S4x2048x2048_S8192x2048 := by
  show StableHlo.after hostOps1 (W1 m ρ c) (Proc.devRef .tc main_v2) = _
  after_results
  rfl

/-- The scale row is the scale column reshaped. -/
theorem scale_reshape (c : Dev nD) :
    (V2 m ρ c main_v1 : S1x8192.Idx → EReal)
      = shapeCast S1x8192 (V1 m ρ c main_v0_1 : S8192x1.Idx → EReal) shapeCasts_S8192x1_S1x8192 := by
  show StableHlo.after hostOps1 (W1 m ρ c) (Proc.devRef .tc main_v1) = _
  after_results
  rfl

/-- The two reshapes do not touch the ternary weights. -/
theorem tern_unmoved (c : Dev nD) : V2 m ρ c main_v0_0 = V1 m ρ c main_v0_0 := by
  show StableHlo.after hostOps1 (W1 m ρ c) (Proc.devRef .tc main_v0_0) = _
  after_results

/-- The quantization region leaves the activations as launched, and finds the weights as launched. -/
theorem act_launch (c : Dev nD) : V1 m ρ c main_arg0 = m ((c.tc : Thread nD τ).loc main_arg0) :=
  W1_of_ne m ρ c main_arg0 (by decide)

/-- The ternary weights and the scale column after the quantization region. -/
theorem tern_array (c : Dev nD) :
    (V1 m ρ c main_v0_0 : S8192x2048.Idx → EReal) = Quant.ternArr (m ((c.tc : Thread nD τ).loc main_arg1)) :=
  (W1_arr m ρ c 1).trans (Quant.final_tern (V0 m ρ) c)
theorem scale_array (c : Dev nD) :
    (V1 m ρ c main_v0_1 : S8192x1.Idx → EReal) = Quant.scaleCol (m ((c.tc : Thread nD τ).loc main_arg1)) :=
  (W1_arr m ρ c 2).trans (Quant.final_scale (V0 m ρ) c)

/-! ## The three arrays the product region finds, entry by entry -/

/-- Row `2048 b + s` of the cast activations is activation row `(b, s)`. -/
theorem act_entry (c : Dev nD) (b : Fin 4) (s : Fin 2048) (k : Fin 2048) (h : b.val * 2048 + s.val < 8192) :
    (V3 m ρ c main_v3 : S8192x2048.Idx → EReal) (ix2 (⟨b.val * 2048 + s.val, h⟩ : Fin 8192) k)
      = (m ((c.tc : Thread nD τ).loc main_arg0) : S4x2048x2048.Idx → EReal) (ix3 b s k) := by
  rw [cast_array, act_reshape, act_launch]
  refine shapeCast_apply _ _ _ (ix3 b s k) ?_
  rw [Shape.rowMajor_val_two, Shape.rowMajor_val_three]
  show (b.val * 2048 + s.val) * 2048 + k.val = (b.val * 2048 + s.val) * 2048 + k.val
  rfl

/-- The ternary weights at `(o, k)`. -/
theorem tern_entry (c : Dev nD) (o : Fin 8192) (k : Fin 2048) :
    (V3 m ρ c main_v0_0 : S8192x2048.Idx → EReal) (ix2 o k)
      = tern (rowScale (fun k : Fin 2048 => (m ((c.tc : Thread nD τ).loc main_arg1) : S8192x2048.Idx → EReal) (ix2 o k)))
          ((m ((c.tc : Thread nD τ).loc main_arg1) : S8192x2048.Idx → EReal) (ix2 o k)) := by
  rw [tern_kept, tern_unmoved, tern_array]
  rfl

/-- The scale row at `o`. -/
theorem scale_entry (c : Dev nD) (o : Fin 8192) :
    (V3 m ρ c main_v1 : S1x8192.Idx → EReal) (ix2 (0 : Fin 1) o)
      = rowScale (fun k : Fin 2048 => (m ((c.tc : Thread nD τ).loc main_arg1) : S8192x2048.Idx → EReal) (ix2 o k)) := by
  rw [scale_kept, scale_reshape, scale_array]
  refine (shapeCast_apply _ _ _ (ix2 o (0 : Fin 1)) ?_).trans rfl
  rw [Shape.rowMajor_val_two, Shape.rowMajor_val_two]
  show o.val * 1 + 0 = 0 * 8192 + o.val
  omega

/-! ## The result -/

/-- The result array is the scaled arrangement of the two arguments. -/
theorem result_eq (c : Dev nD) :
    (W5 m ρ c (Proc.devRef .tc main_v5) : S4x2048x8192.Idx → EReal)
      = scaledOut (m ((c.tc : Thread nD τ).loc main_arg0)) (m ((c.tc : Thread nD τ).loc main_arg1)) := by
  funext i
  obtain ⟨b, s, o, rfl⟩ : ∃ (b : Fin 4) (s : Fin 2048) (o : Fin 8192), i = ix3 b s o := ⟨i 0, i 1, i 2, eq_ix3 i⟩
  have hrow : b.val * 2048 + s.val < 8192 := by have := b.isLt; have := s.isLt; omega
  rw [result_reshape, product_array]
  refine (shapeCast_apply _ _ (ix3 b s o) (ix2 (⟨b.val * 2048 + s.val, hrow⟩ : Fin 8192) o) ?_).trans ?_
  · rw [Shape.rowMajor_val_two, Shape.rowMajor_val_three]
    show (b.val * 2048 + s.val) * 8192 + o.val = (b.val * 2048 + s.val) * 8192 + o.val
    rfl
  · unfold Product.prodArr scaledOut scaledSum
    exact congr (congrArg _ (Finset.sum_congr rfl fun k _ =>
      congr (congrArg _ (act_entry m ρ c b s k hrow)) (tern_entry m ρ c o k))) (scale_entry m ρ c o)

/-- THE KERNEL'S RUN: every weakly fair execution terminates without a fault, with the result at the scaled arrangement
    of the launch contents of the two arguments, and the arguments unchanged. -/
theorem run : θ_run defs (onTc (τ := τ) (main (F := Ideal))) ⟨m, fun _ => 0, ρ⟩ (fun r => ∀ c : Dev nD,
      r.2.mem ((c.tc : Thread nD τ).loc main_v5)
        = scaledOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result_eq m ρ c), (h c).2⟩) (run_result m ρ)

end Cert.KernelIdeal.Whole

end
-- ==== Proof.RefValue.lean ====
/-
  The reference, read entry by entry.

  The host program computes, for weight row `o`, the scale (the sum of absolute values from a zero start, divided by
  the row length, floored from below), then for every entry the ternary value (quotient by the row's scale, rounded to
  nearest even, clipped to [-1, 1]), the dequantized weight `w + (q · s - w)`, and finally contracts the activations
  with the dequantized weights over the shared axis.  Read at entry `(b, s, o)` through the generated per-operation
  lemmas this is the dequantized sum of activation row `(b, s)` and weight row `o`.
-/
import proofs.«163683_j2525440770142_2_alg».proof.Proof.Gen.ReferenceIdeal.Read
import proofs.«163683_j2525440770142_2_alg».proof.Proof.Spec

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Ternary

/-- The scale column, row `o`: the scale of weight row `o`. -/
theorem scale_apply (W : (⟨S8192x2048, .f32⟩ : BufTy).Contents (Elt Ideal)) (o : Fin 8192) :
    val_main_v5 (F := Ideal) W (ix2 o (0 : Fin 1)) = rowScale (fun k : Fin 2048 => W (ix2 o k)) := by
  rw [val_main_v5_apply, val_main_call0_v1_apply, val_main_call0_v0_apply, val_main_cst_1_apply, val_main_v4_apply,
    val_main_v2_apply, val_main_v3_apply, val_main_cst_0_apply, val_main_v1_apply, val_main_cst_apply]
  unfold rowScale floorC widthC
  simp only [val_main_v0_apply, Ideal.ofBits_def, Ideal.ofBits_zero_f32, zero_add, Ideal.hostAbsf_def, Ideal.maximumf_def,
    Ideal.hostDivf_def]
  refine congrArg (max _) (congrArg (fun z => Ideal.div z _) (Finset.sum_congr rfl fun k _ => congrArg _ (congrArg W ?_)))
  exact funext fun a => Fin.ext (by match a with | ⟨0, _⟩ => rfl | ⟨1, _⟩ => rfl)

/-- The ternary array at `(o, k)`: the ternary value of the entry under its row's scale. -/
theorem tern_apply (W : (⟨S8192x2048, .f32⟩ : BufTy).Contents (Elt Ideal)) (o : Fin 8192) (k : Fin 2048) :
    val_main_v9 (F := Ideal) W (ix2 o k) = tern (rowScale (fun k : Fin 2048 => W (ix2 o k))) (W (ix2 o k)) := by
  rw [val_main_v9_apply, val_main_call2_v4_apply, val_main_call2_v3_apply, val_main_cst_3_apply, val_main_call2_v2_apply,
    val_main_call2_v1_apply, val_main_call2_v0_apply, val_main_cst_2_apply, val_main_v8_apply, val_main_v7_apply,
    val_main_v6_apply,
    show idx_main_v6 (ix2 o k) = ix2 o (0 : Fin 1) from
      funext fun a => Fin.ext (by match a with | ⟨0, _⟩ => rfl | ⟨1, _⟩ => rfl),
    scale_apply]
  unfold tern hiC loC
  simp only [Ideal.ofBits_def, Ideal.minimumf_def, Ideal.maximumf_def, Ideal.hostUnary_roundeven_def, Ideal.hostDivf_def]

/-- The dequantized weight at `(o, k)`. -/
theorem dequant_apply (W : (⟨S8192x2048, .f32⟩ : BufTy).Contents (Elt Ideal)) (o : Fin 8192) (k : Fin 2048) :
    val_main_v13 (F := Ideal) W (ix2 o k)
      = W (ix2 o k) + (tern (rowScale (fun k : Fin 2048 => W (ix2 o k))) (W (ix2 o k))
          * rowScale (fun k : Fin 2048 => W (ix2 o k)) - W (ix2 o k)) := by
  rw [val_main_v13_apply, val_main_v12_apply, val_main_v11_apply, val_main_v10_apply,
    show idx_main_v10 (ix2 o k) = ix2 o (0 : Fin 1) from
      funext fun a => Fin.ext (by match a with | ⟨0, _⟩ => rfl | ⟨1, _⟩ => rfl),
    scale_apply, tern_apply]
  simp only [Ideal.addf_def, Ideal.subf_def, Ideal.mulf_def]

/-- The reference's result is the dequantized arrangement of its two arguments. -/
theorem result_eq (X : (⟨S4x2048x2048, .f32⟩ : BufTy).Contents (Elt Ideal))
    (W : (⟨S8192x2048, .f32⟩ : BufTy).Contents (Elt Ideal)) :
    val_main_v14 (F := Ideal) X W = dequantOut X W := by
  funext i
  rw [val_main_v14_apply]
  unfold dequantOut dequantSum
  refine Finset.sum_congr rfl fun k _ => ?_
  rw [show lidx_main_v14 i k = ix3 (i 0 : Fin 4) (i 1 : Fin 2048) k from
      funext fun a => Fin.ext (by match a with | ⟨0, _⟩ => rfl | ⟨1, _⟩ => rfl | ⟨2, _⟩ => rfl),
    show ridx_main_v14 i k = ix2 (i 2 : Fin 8192) k from
      funext fun a => Fin.ext (by match a with | ⟨0, _⟩ => rfl | ⟨1, _⟩ => rfl)]
  exact congrArg _ (dequant_apply W (i 2) k)

end Cert.ReferenceIdeal.RefValue

end
-- ==== Proof.Finite.lean ====
/-
  From the precondition to real numbers.

  The precondition is one bit: for each of the two argument arrays, "every entry's absolute value is below +∞", the two
  conjoined.  On the extended reals an entry whose absolute value is below +∞ is neither infinity, so it is a real
  number.  This module reads the bit back into that statement for every entry of both arrays.
-/
import proofs.«163683_j2525440770142_2_alg».proof.Pre_finite_inputs
import proofs.«163683_j2525440770142_2_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.Finite

open Idealize.ShloMosaic Cert.Pre_finite_inputs

instance : Subsingleton S_.Idx := ⟨fun a b => funext fun d => d.elim0⟩

/-- An extended real whose absolute value compares below the pattern of +∞ is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

variable [Facts]

/-- When the precondition's bit is set, every entry of both arrays is a real number. -/
theorem reals_of_pre (a0 : FVec Ideal S4x2048x2048 .f32) (a1 : FVec Ideal S8192x2048 .f32)
    (h : fn (F := Ideal) a0 a1 = fun _ => 1#1) :
    (∀ i, ∃ r : ℝ, a0 i = (r : EReal)) ∧ (∀ i, ∃ r : ℝ, a1 i = (r : EReal)) := by
  have h0 := congrFun h ValueIdx.ix0
  dsimp only [fn] at h0
  obtain ⟨h3, h7⟩ := IntOp.andi_eq_one.mp h0
  exact ⟨fun i => real_of_abs_lt_top _ (Host.reduce_andi_all _ _ _ _ _ h3 i),
    fun i => real_of_abs_lt_top _ (Host.reduce_andi_all _ _ _ _ _ h7 i)⟩

end Cert.Finite

end
-- ==== Proof.lean ====
/-
  A linear layer with ternary weights: the kernel against its reference, on the extended reals.

  Both programs take activations `x` of shape [4, 2048, 2048] and weights `w` of shape [8192, 2048].  For every weight
  row they compute the scale `s = max(floor, mean |w|)` and replace every weight by the ternary value
  `q = clip(round(w / s), -1, 1)`.  The kernel, in three regions (quantize, cast, multiply), contracts the activations
  with `q` and multiplies the finished sum by `s`; the reference rebuilds the weight `w + (q · s - w)` and contracts the
  activations with it.  Entry `(b, s, o)` of either result depends on activation row `(b, s)` and weight row `o` only.

  * `Proof/Ternary.lean`, `Proof/Spec.lean`: the two arrangements of one pair of rows, the law that they agree on rows
    of real numbers, and the two whole-array functions.
  * `Proof/Finite.lean`: the precondition says every entry of both arguments is a real number.
  * `Proof/Payloads.lean`, `Proof/RegionQuant.lean`, `Proof/RegionCast.lean`, `Proof/RegionProduct.lean`: what each
    kernel body computes at an entry, and what each region leaves in its output arrays as whole-array functions.
  * `Proof/KernelRun.lean`, `Proof/KernelValue.lean`: the kernel's run with its result named, read back through the
    reshapes and the three regions to the kernel's arrangement of the two arguments.
  * `Proof/RefValue.lean`: the reference's result, operation by operation, is the reference's arrangement.

  The frames of the two kernel programs are the generated ones; the reference's frame is its generated run with the result
  dropped.  The idealization rewrote nothing, so there is nothing to preserve.  The algebraic claim takes the kernel's
  arrangement as the common value: the kernel's run ends there, the reference's run ends at its own arrangement of the
  same arguments, and under the precondition the two arrangements are one function.
-/
import proofs.«163683_j2525440770142_2_alg».proof.Defs
import proofs.«163683_j2525440770142_2_alg».proof.Proof.Gen.Kernel
import proofs.«163683_j2525440770142_2_alg».proof.Proof.Gen.Kernel.Frame
import proofs.«163683_j2525440770142_2_alg».proof.Proof.Gen.KernelIdeal
import proofs.«163683_j2525440770142_2_alg».proof.Proof.Gen.KernelIdeal.Frame
import proofs.«163683_j2525440770142_2_alg».proof.Proof.Gen.ReferenceIdeal
import proofs.«163683_j2525440770142_2_alg».proof.Proof.Gen.ReferenceIdeal.Run
import proofs.«163683_j2525440770142_2_alg».proof.Proof.Gen.ReferenceIdeal.Read
import proofs.«163683_j2525440770142_2_alg».proof.Proof.Gen.Pre_finite_inputs
import proofs.«163683_j2525440770142_2_alg».proof.Proof.KernelValue
import proofs.«163683_j2525440770142_2_alg».proof.Proof.RefValue
import proofs.«163683_j2525440770142_2_alg».proof.Proof.Finite
import proofs.«163683_j2525440770142_2_alg».proof.Proof.Spec
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text: no rewrite to justify. -/
theorem preserves : Cert.preserves_Kernel_KernelIdeal := trivial

/-- Both runs end at the kernel's arrangement of the arguments: the kernel's by its value, the reference's because its
    own arrangement agrees with it on arrays of real numbers, which the precondition provides. -/
theorem algebraic : Cert.algebraic_KernelIdeal_ReferenceIdeal := by
  intro m ρ m' ρ' hpre hagree
  refine ⟨fun c => Cert.Ternary.scaledOut (m ((c.tc : Thread Cert.KernelIdeal.nD Cert.KernelIdeal.τ).loc Cert.KernelIdeal.main_arg0))
    (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq, (hagree c).1, (hagree c).2]
  obtain ⟨hX, hW⟩ := Cert.Finite.reals_of_pre _ _ (hpre c)
  exact (Cert.Ternary.scaledOut_eq_dequantOut _ _ hX hW).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
